-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S5000x128 : Shape := ⟨2, ![5000, 128]⟩
abbrev S5000x2 : Shape := ⟨2, ![5000, 2]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 75
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x1, .f32⟩
  | .hbm, ⟨41, _⟩ => ⟨S100000x2, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x128, .f32⟩
  | .hbm, ⟨58, _⟩ => ⟨S100000x64, .bf16⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .bf16⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S1x64, .f32⟩
  | .hbm, ⟨74, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x2, .f32⟩
  | .local _ .vmem, ⟨3, _⟩ => ⟨S5000x2, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x2, .f32⟩
  | .local _ .vmem, ⟨10, _⟩ => ⟨S5000x2, .f32⟩
  | .local _ .vmem, ⟨11, _⟩ => ⟨S1x128, .f32⟩
  | .local _ .vmem, ⟨12, _⟩ => ⟨S128x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x2, .f32⟩
  | .local _ .vmem, ⟨18, _⟩ => ⟨S5000x2, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  inb_S5000x128_S5000x128_0_0 : ∀ a, (![0, 0] : Fin 2 → Nat) a + S5000x128.size a ≤ S5000x128.size a
  h_S5000x128 : 0 < S5000x128.numel
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  slices_S5000x2_o0_1_S5000x1 : S5000x2.Slices ![0, 1] S5000x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S100000x2.size a
  hwx2_1 : ∀ i : grid2.Coords, EltTy.bits .f32 = 32 ∨ (Rect.block (s := S100000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .i1⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000, .f32⟩
  | .hbm, ⟨93, _⟩ => ⟨S_, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S100000x64, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x64, .f32⟩
  | .hbm, ⟨110, _⟩ => ⟨S_, .f32⟩
  | .hbm, ⟨111, _⟩ => ⟨S100000x64, .f32⟩
  | .hbm, ⟨112, _⟩ => ⟨S1600000x1, .i32⟩
  | .hbm, ⟨113, _⟩ => ⟨S100000x64, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | .hbm, ⟨120, _⟩ => ⟨S_, .f32⟩
  | .hbm, ⟨121, _⟩ => ⟨S100000x64, .f32⟩
  | .hbm, ⟨122, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_cst_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_15 : Ref sig .tc := ⟨.hbm, 82, rfl⟩
abbrev main_call3_v0 : Ref sig .tc := ⟨.hbm, 83, rfl⟩
abbrev main_call3_v1 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_call4_v0 : Ref sig .tc := ⟨.hbm, 94, rfl⟩
abbrev main_call4_v1 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_19 : Ref sig .tc := ⟨.hbm, 101, rfl⟩
abbrev main_v63 : Ref sig .tc := ⟨.hbm, 102, rfl⟩
abbrev main_v64 : Ref sig .tc := ⟨.hbm, 103, rfl⟩
abbrev main_c_20 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_21 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call5_cst : Ref sig .tc := ⟨.hbm, 120, rfl⟩
abbrev main_call5_v0 : Ref sig .tc := ⟨.hbm, 121, rfl⟩
abbrev main_v79 : Ref sig .tc := ⟨.hbm, 122, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its RESULT named.

  @main is three kernel regions among stretches of host operations. The buffer contents at the segment boundaries
  are a fold from the launch memory: a stretch applies its operations, a region replaces each of its output arrays by
  what its write-backs leave. `W10` is the last boundary's contents. Every weakly fair execution terminates, without a
  fault, in a state whose unscoped buffers are at `W10`; read at the result buffer this names the result, and read at
  the argument buffers (which no stretch and no region writes) it gives the arguments as launched.
-/
import proofs.«122150_j2087354105940_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W10` and every argument array as launched. -/
theorem run_named : θ_run defs (onTc (τ := τ) (main (F := F))) ⟨m, fun _ => 0, ρ⟩ (fun r => ∀ c : Dev nD,
      r.2.mem ((c.tc : Thread nD τ).loc main_v48) = W10 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v48 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Named

end
-- ==== Proof.Spec.lean ====
/-
  Two graph-convolution layers, each with the degree normalisation on both sides, as functions of whole arrays.

  Over the extended reals. With `N` the [nodes, 2] array whose column 0 is the source-side scale and column 1 the
  destination-side scale of a node:

    * `scaleMatmul X N W`      row r, column c:  ∑ k, (X[r,k] · N[r,0]) · W[k,c]
    * `reluScaleMatmul A N B W` row r, column c:  ∑ k, (max (A[r,k] · N[r,1] + B[0,k]) 0 · N[r,0]) · W[k,c]
    * `scaleBiasRelu A N B`     row r, column c:  max (A[r,c] · N[r,1] + B[0,c]) 0

  The zero of the rectifier is kept as the word of +0.0: both programs compare against that same word.
-/
import proofs.«122150_j2087354105940_2_alg».proof.KernelIdeal
import Idealize.ShloMosaic.PureOps.Ideal
import Idealize.ShloMosaic.Lib.ValueIdx

noncomputable section

namespace Cert.Layers

open Idealize.ShloMosaic Idealize.ShloMosaic.ValueIdx Cert.KernelIdeal

/-- The rectifier's threshold: the word of +0.0 read as an extended real. -/
abbrev zeroWord : EReal := Ideal.ofBits .f32 0x00000000#32

/-- Layer 1 before the edge stage: each row of `X` scaled by its source-side factor, then the product with `W`. -/
def scaleMatmul (X : S100000x128.Idx → EReal) (N : S100000x2.Idx → EReal) (W : S128x128.Idx → EReal) :
    S100000x128.Idx → EReal :=
  fun i => ∑ k : Fin 128,
    (X (ix2 (⟨(i 0).val, (i 0).isLt⟩ : Fin 100000) k) * N (ix2 (⟨(i 0).val, (i 0).isLt⟩ : Fin 100000) (0 : Fin 2)))
      * W (ix2 k (⟨(i 1).val, (i 1).isLt⟩ : Fin 128))

/-- Layer 1 after the edge stage fused with layer 2 before it: the aggregate `A` scaled by the destination-side
    factor, the bias added, rectified; then scaled by the source-side factor and multiplied with `W`. -/
def reluScaleMatmul (A : S100000x128.Idx → EReal) (N : S100000x2.Idx → EReal) (B : S1x128.Idx → EReal)
    (W : S128x64.Idx → EReal) : S100000x64.Idx → EReal :=
  fun i => ∑ k : Fin 128,
    (max (A (ix2 (⟨(i 0).val, (i 0).isLt⟩ : Fin 100000) k) * N (ix2 (⟨(i 0).val, (i 0).isLt⟩ : Fin 100000) (1 : Fin 2))
            + B (ix2 (0 : Fin 1) k)) zeroWord
        * N (ix2 (⟨(i 0).val, (i 0).isLt⟩ : Fin 100000) (0 : Fin 2)))
      * W (ix2 k (⟨(i 1).val, (i 1).isLt⟩ : Fin 64))

/-- Layer 2 after the edge stage: the aggregate scaled by the destination-side factor, the bias added, rectified. -/
def scaleBiasRelu (A : S100000x64.Idx → EReal) (N : S100000x2.Idx → EReal) (B : S1x64.Idx → EReal) :
    S100000x64.Idx → EReal :=
  fun i => max (A i * N (ix2 (⟨(i 0).val, (i 0).isLt⟩ : Fin 100000) (1 : Fin 2))
            + B (ix2 (0 : Fin 1) (⟨(i 1).val, (i 1).isLt⟩ : Fin 64))) zeroWord

end Cert.Layers

end
-- ==== Proof.RefLayers.lean ====
/-
  The reference's three dense stages are the layer functions.

  The reference computes, per layer: the features scaled row by row by the source-side factor, the product with the
  weights (a host `dot_general`: over the extended reals, at row r and column c, the sum over k of the products of the
  operands at (r, k) and (k, c)), the edge stage, and then the aggregate scaled by the destination-side factor, the bias
  added, rectified. Read index by index, these are `scaleMatmul`, `reluScaleMatmul` and `scaleBiasRelu` of ANY packed
  scale array `N` whose column 0 holds the source-side factors and column 1 the destination-side ones, and of ANY bias
  row `B` holding the bias vector. The second layer recomputes both factors from the same edge lists: the same terms.
-/
import proofs.«122150_j2087354105940_2_alg».proof.Proof.RefRead
import proofs.«122150_j2087354105940_2_alg».proof.Proof.Spec

noncomputable section

namespace Cert.ReferenceIdeal.Layers

open Cert.ReferenceIdeal Cert.ReferenceIdeal.Gen Cert.ReferenceIdeal.Read Cert.Layers
open Idealize.ShloMosaic Idealize.ShloMosaic.TcCoe Idealize.SL.Sem Idealize.ShloMosaic.ValueIdx

variable (x0 : (⟨S100000x128, .f32⟩ : BufTy).Contents (Elt Ideal)) (x1 : (⟨S128x128, .f32⟩ : BufTy).Contents (Elt Ideal)) (x2 : (⟨S128, .f32⟩ : BufTy).Contents (Elt Ideal))
  (x3 : (⟨S128x64, .f32⟩ : BufTy).Contents (Elt Ideal)) (x4 : (⟨S64, .f32⟩ : BufTy).Contents (Elt Ideal)) (x5 x6 : (⟨S1600000, .i32⟩ : BufTy).Contents (Elt Ideal))

/-- The second layer's source-side factors are the first layer's: the same operations of the same edge list. -/
theorem source_scale_again : val_main_v52 (F := Ideal) x5 = val_main_v12 (F := Ideal) x5 := rfl

/-- The second layer's destination-side factors are the first layer's. -/
theorem dest_scale_again : val_main_v58 (F := Ideal) x6 = val_main_v18 (F := Ideal) x6 := rfl

/-- Layer 1 before the edge stage. -/
theorem layer1 (N : Cert.KernelIdeal.S100000x2.Idx → EReal)
    (hN0 : ∀ r : Fin 100000, N (ix2 r (0 : Fin 2)) = val_main_v12 (F := Ideal) x5 (ix1 r)) :
    val_main_v22 (F := Ideal) x0 x1 x5 = scaleMatmul x0 N x1 := by
  funext i
  rw [val_main_v22_apply]
  unfold scaleMatmul
  refine Finset.sum_congr rfl fun k _ => ?_
  rw [val_main_v21_apply, val_main_v20_apply, val_main_v19_apply, hN0]
  have h1 : lidx_main_v22 i k = ix2 (⟨(i 0).val, (i 0).isLt⟩ : Fin 100000) k :=
    funext fun a => Fin.ext (by match a with | ⟨0, _⟩ => rfl | ⟨1, _⟩ => rfl)
  have h2 : ridx_main_v22 i k = ix2 k (⟨(i 1).val, (i 1).isLt⟩ : Fin 128) :=
    funext fun a => Fin.ext (by match a with | ⟨0, _⟩ => rfl | ⟨1, _⟩ => rfl)
  have h3 : idx_main_v19 (idx_main_v20 (lidx_main_v22 i k)) = ix1 (⟨(i 0).val, (i 0).isLt⟩ : Fin 100000) :=
    funext fun a => Fin.ext (by match a with | ⟨0, _⟩ => rfl)
  rw [h3, h1, h2]
  rfl

/-- Layer 1 after the edge stage, fused with layer 2 before it. -/
theorem layer2 (N : Cert.KernelIdeal.S100000x2.Idx → EReal) (B : Cert.KernelIdeal.S1x128.Idx → EReal)
    (hN0 : ∀ r : Fin 100000, N (ix2 r (0 : Fin 2)) = val_main_v12 (F := Ideal) x5 (ix1 r))
    (hN1 : ∀ r : Fin 100000, N (ix2 r (1 : Fin 2)) = val_main_v18 (F := Ideal) x6 (ix1 r))
    (hB : ∀ k : Fin 128, B (ix2 (0 : Fin 1) k) = x2 (ix1 k)) :
    val_main_v62 (F := Ideal) x0 x1 x2 x3 x5 x6
      = reluScaleMatmul (val_main_v32 (F := Ideal) x0 x1 x5 x6) N B x3 := by
  funext i
  rw [val_main_v62_apply]
  unfold reluScaleMatmul
  refine Finset.sum_congr rfl fun k _ => ?_
  rw [val_main_v61_apply, val_main_v39_apply, val_main_v38_apply, val_main_v35_apply, val_main_v34_apply,
    val_main_v33_apply, val_main_v37_apply, val_main_v36_apply, val_main_v60_apply, val_main_v59_apply,
    source_scale_again, hN0, hN1, hB]
  have h1 : lidx_main_v62 i k = ix2 (⟨(i 0).val, (i 0).isLt⟩ : Fin 100000) k :=
    funext fun a => Fin.ext (by match a with | ⟨0, _⟩ => rfl | ⟨1, _⟩ => rfl)
  have h2 : ridx_main_v62 i k = ix2 k (⟨(i 1).val, (i 1).isLt⟩ : Fin 64) :=
    funext fun a => Fin.ext (by match a with | ⟨0, _⟩ => rfl | ⟨1, _⟩ => rfl)
  have h3 : idx_main_v33 (idx_main_v34 (lidx_main_v62 i k)) = ix1 (⟨(i 0).val, (i 0).isLt⟩ : Fin 100000) :=
    funext fun a => Fin.ext (by match a with | ⟨0, _⟩ => rfl)
  have h4 : idx_main_v36 (idx_main_v37 (lidx_main_v62 i k)) = ix1 k :=
    funext fun a => Fin.ext (by match a with | ⟨0, _⟩ => rfl)
  have h5 : idx_main_v59 (idx_main_v60 (lidx_main_v62 i k)) = ix1 (⟨(i 0).val, (i 0).isLt⟩ : Fin 100000) :=
    funext fun a => Fin.ext (by match a with | ⟨0, _⟩ => rfl)
  rw [h3, h4, h5, h1, h2]
  rfl

/-- Layer 2 after the edge stage: the result. -/
theorem layer2_out (N : Cert.KernelIdeal.S100000x2.Idx → EReal) (B : Cert.KernelIdeal.S1x64.Idx → EReal)
    (hN1 : ∀ r : Fin 100000, N (ix2 r (1 : Fin 2)) = val_main_v18 (F := Ideal) x6 (ix1 r))
    (hB : ∀ k : Fin 64, B (ix2 (0 : Fin 1) k) = x4 (ix1 k)) :
    val_main_v79 (F := Ideal) x0 x1 x2 x3 x4 x5 x6
      = scaleBiasRelu (val_main_v72 (F := Ideal) x0 x1 x2 x3 x5 x6) N B := by
  funext i
  rw [val_main_v79_apply, val_main_v78_apply, val_main_v75_apply, val_main_v74_apply, val_main_v73_apply,
    val_main_v77_apply, val_main_v76_apply, dest_scale_again]
  unfold scaleBiasRelu
  rw [hN1, hB]
  have h3 : idx_main_v73 (idx_main_v74 i) = ix1 (⟨(i 0).val, (i 0).isLt⟩ : Fin 100000) :=
    funext fun a => Fin.ext (by match a with | ⟨0, _⟩ => rfl)
  have h4 : idx_main_v76 (idx_main_v77 i) = ix1 (⟨(i 1).val, (i 1).isLt⟩ : Fin 64) :=
    funext fun a => Fin.ext (by match a with | ⟨0, _⟩ => rfl)
  rw [h3, h4]
  rfl

end Cert.ReferenceIdeal.Layers

end
-- ==== Proof.Layout.lean ====
/-
  The kernels' layout operations read at an index.

  A block of the packed scale array is [rows, 2]; a body takes one of its two columns as a [rows, 1] vector and
  broadcasts it along the lanes, and broadcasts a [1, lanes] bias row along the rows. Read at row r and lane c these
  are the column's entry at row r, and the row's entry at lane c.
-/
import proofs.«122150_j2087354105940_2_alg».proof.KernelIdeal
import Idealize.ShloMosaic.Lib.Pipeline.Value
import Idealize.ShloMosaic.Lib.ValueIdx
import Idealize.ShloMosaic.Lib.ValueLayout

noncomputable section

namespace Cert.Layers

open Idealize.ShloMosaic Idealize.ShloMosaic.ValueIdx Cert.KernelIdeal

variable {α : Type}

/-- Column 0 of a [5000, 2] block, as a [5000, 1] vector, at row `j 0`. -/
theorem column0_apply (v : S5000x2.Idx → α) (h : S5000x2.Slices ![0, 0] S5000x1) (j : S5000x1.Idx) :
    extractStridedSlice S5000x1 ![0, 0] v h j = v (ix2 (⟨(j 0).val, (j 0).isLt⟩ : Fin 5000) (0 : Fin 2)) := by
  refine extractStridedSlice_apply _ v h j _ fun a => ?_
  match a with
  | ⟨0, _⟩ => show (j 0).val = 0 + (j 0).val; omega
  | ⟨1, _⟩ =>
    have h1 : (j 1).val < 1 := (j 1).isLt
    show 0 = 0 + (j 1).val; omega

/-- Column 1 of a [5000, 2] block, as a [5000, 1] vector, at row `j 0`. -/
theorem column1_apply (v : S5000x2.Idx → α) (h : S5000x2.Slices ![0, 1] S5000x1) (j : S5000x1.Idx) :
    extractStridedSlice S5000x1 ![0, 1] v h j = v (ix2 (⟨(j 0).val, (j 0).isLt⟩ : Fin 5000) (1 : Fin 2)) := by
  refine extractStridedSlice_apply _ v h j _ fun a => ?_
  match a with
  | ⟨0, _⟩ => show (j 0).val = 0 + (j 0).val; omega
  | ⟨1, _⟩ =>
    have h1 : (j 1).val < 1 := (j 1).isLt
    show 1 = 1 + (j 1).val; omega

/-- A [5000, 1] column broadcast along 128 lanes, at row `y 0`. -/
theorem lanes128_apply (v : S5000x1.Idx → α) (h : S5000x1.Broadcasts S5000x128) (y : S5000x128.Idx) :
    broadcastTo S5000x128 v h y = v (ix2 (⟨(y 0).val, (y 0).isLt⟩ : Fin 5000) (0 : Fin 1)) := by
  refine broadcastTo_apply v h y _ fun a => ?_
  match a with
  | ⟨0, _⟩ => show (y 0).val = if (5000 : Nat) = 1 then 0 else (y 0).val; rw [if_neg (by decide)]
  | ⟨1, _⟩ => show 0 = if (1 : Nat) = 1 then 0 else (y 1).val; rw [if_pos rfl]

/-- A [5000, 1] column broadcast along 64 lanes, at row `y 0`. -/
theorem lanes64_apply (v : S5000x1.Idx → α) (h : S5000x1.Broadcasts S5000x64) (y : S5000x64.Idx) :
    broadcastTo S5000x64 v h y = v (ix2 (⟨(y 0).val, (y 0).isLt⟩ : Fin 5000) (0 : Fin 1)) := by
  refine broadcastTo_apply v h y _ fun a => ?_
  match a with
  | ⟨0, _⟩ => show (y 0).val = if (5000 : Nat) = 1 then 0 else (y 0).val; rw [if_neg (by decide)]
  | ⟨1, _⟩ => show 0 = if (1 : Nat) = 1 then 0 else (y 1).val; rw [if_pos rfl]

/-- A [1, 128] row broadcast along 5000 rows, at lane `y 1`. -/
theorem rows128_apply (v : S1x128.Idx → α) (h : S1x128.Broadcasts S5000x128) (y : S5000x128.Idx) :
    broadcastTo S5000x128 v h y = v (ix2 (0 : Fin 1) (⟨(y 1).val, (y 1).isLt⟩ : Fin 128)) := by
  refine broadcastTo_apply v h y _ fun a => ?_
  match a with
  | ⟨0, _⟩ => show 0 = if (1 : Nat) = 1 then 0 else (y 0).val; rw [if_pos rfl]
  | ⟨1, _⟩ => show (y 1).val = if (128 : Nat) = 1 then 0 else (y 1).val; rw [if_neg (by decide)]

/-- A [1, 64] row broadcast along 5000 rows, at lane `y 1`. -/
theorem rows64_apply (v : S1x64.Idx → α) (h : S1x64.Broadcasts S5000x64) (y : S5000x64.Idx) :
    broadcastTo S5000x64 v h y = v (ix2 (0 : Fin 1) (⟨(y 1).val, (y 1).isLt⟩ : Fin 64)) := by
  refine broadcastTo_apply v h y _ fun a => ?_
  match a with
  | ⟨0, _⟩ => show 0 = if (1 : Nat) = 1 then 0 else (y 0).val; rw [if_pos rfl]
  | ⟨1, _⟩ => show (y 1).val = if (64 : Nat) = 1 then 0 else (y 1).val; rw [if_neg (by decide)]

end Cert.Layers

end
-- ==== Proof.FirstRegion.lean ====
/-
  The first kernel region: each row of the features scaled by its source-side factor, then the product with W1.

  The region runs twenty grid points; point t loads rows 5000·t … 5000·t + 4999 of the features and of the packed
  scale array and the whole weight matrix, and writes the same rows of the result. The body's product is the matrix
  unit's, into a zero accumulator: over the extended reals, at row r and column c, the sum over k of the products of
  the left operand at (r, k) and the right at (k, c). Changes of float format are the identity there. So the result
  array after the region is `scaleMatmul` of the three arrays as the region finds them, whatever those are.
-/
import proofs.«122150_j2087354105940_2_alg».proof.Proof.Gen.KernelIdeal.Frame
import proofs.«122150_j2087354105940_2_alg».proof.Proof.Spec
import proofs.«122150_j2087354105940_2_alg».proof.Proof.Layout
import Idealize.ShloMosaic.Lib.Pipeline.Value
import Idealize.ShloMosaic.PureOps.Ideal.Laws

set_option maxRecDepth 16384

noncomputable section

namespace Cert.KernelIdeal.FirstRegion

open Cert.KernelIdeal Cert.KernelIdeal.Gen Cert.Layers
open Idealize.ShloMosaic Idealize.ShloMosaic.TcCoe Idealize.SL.Sem Idealize.ShloMosaic.ValueIdx
open Idealize.ShloMosaic.Pipeline (Dat)

local notation "D₁" => dot_S5000x128_S128x128_S5000x128_1_0_0_1_n_n

/-- The left operand's row is the output's row. -/
theorem lhs_row (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl

/-- The right operand's column is the output's column. -/
theorem rhs_col (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- The matrix unit's product into a zero accumulator, at row r and column c: ∑ k, L[r,k] · R[k,c]. -/
theorem matmul_apply (L : FVec Ideal S5000x128 .bf16) (R : FVec Ideal S128x128 .bf16) (y : S5000x128.Idx) :
    matmul dot_S5000x128_S128x128_S5000x128_1_0_0_1_n_n none L R (constant S5000x128 .f32 0x00000000#32) y
      = ∑ k : Fin 128, L (ix2 (⟨(y 0).val, (y 0).isLt⟩ : Fin 5000) k) * R (ix2 k (⟨(y 1).val, (y 1).isLt⟩ : Fin 128)) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : (dot_S5000x128_S128x128_S5000x128_1_0_0_1_n_n).lhsIdx y
      ((ValueIdx.contrEquiv1 dot_S5000x128_S128x128_S5000x128_1_0_0_1_n_n 128 rfl rfl).symm k)
      = ix2 (⟨(y 0).val, (y 0).isLt⟩ : Fin 5000) k := funext fun a => Fin.ext (by
    match a with
    | ⟨0, _⟩ => exact lhs_row _ _
    | ⟨1, _⟩ => exact ((dot_S5000x128_S128x128_S5000x128_1_0_0_1_n_n).lhsIdx_val_of_single rfl y _).trans hk)
  have er : (dot_S5000x128_S128x128_S5000x128_1_0_0_1_n_n).rhsIdx y
      ((ValueIdx.contrEquiv1 dot_S5000x128_S128x128_S5000x128_1_0_0_1_n_n 128 rfl rfl).symm k)
      = ix2 k (⟨(y 1).val, (y 1).isLt⟩ : Fin 128) := funext fun a => Fin.ext (by
    match a with
    | ⟨0, _⟩ => exact ((dot_S5000x128_S128x128_S5000x128_1_0_0_1_n_n).rhsIdx_val_of_single rfl y _).trans hk
    | ⟨1, _⟩ => exact rhs_col _ _)
  rw [el, er]

/-- The body's stored value at row r and column c of its block: ∑ k, (x[r,k] · scale[r,0]) · w[k,c]. -/
theorem pay_apply (v0 : Vec Ideal S5000x2 .f32) (v3 : Vec Ideal S5000x128 .f32) (v7 : Vec Ideal S128x128 .f32) (y : S5000x128.Idx) :
    k0_pay1 (F := Ideal) v0 v3 v7 y
      = ∑ k : Fin 128, (v3 (ix2 (⟨(y 0).val, (y 0).isLt⟩ : Fin 5000) k) * v0 (ix2 (⟨(y 0).val, (y 0).isLt⟩ : Fin 5000) (0 : Fin 2)))
          * v7 (ix2 k (⟨(y 1).val, (y 1).isLt⟩ : Fin 128)) := by
  unfold k0_pay1
  simp only [truncf_apply]
  rw [matmul_apply]
  refine Finset.sum_congr rfl fun k _ => ?_
  simp only [truncf_apply, mulf_apply]
  rw [lanes128_apply, column0_apply, shapeCast_self]

variable (V : (c : Dev nD) → (b : Ref sig .tc) → Buf (Elt Ideal) ((c : Thread nD τ).loc b))

theorem offsets_zero : (![0, 0] : Fin 2 → Nat) = fun _ => 0 := funext fun a => by fin_cases a <;> rfl

/-- The four index maps over the twenty points: the row-blocked windows sit at block (t, 0), the weights at (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is rows 5000·t … of `scaleMatmul` of the arrays as the region finds them. -/
theorem flushed_eq (c : Dev nD) (t : Fin cfg0.N) :
    (dat0 V c).flushed 3 t
      = ((cfg0.win 3).blk t).view.read (Elt Ideal) (scaleMatmul (V c main_arg0) (V c main_v21) (V c main_arg1)) := by
  show (cfg0.win 3).cut (grid0.coords t) ((dat0 V c).after 3 t) = _
  rw [after0_3]
  unfold out0_3
  rw [View.canon_unit_zero offsets_zero]
  simp only [View.ld_unit_zero (S := S5000x2) offsets_zero, View.ld_unit_zero (S := S5000x128) offsets_zero,
    View.ld_unit_zero (S := S128x128) offsets_zero]
  obtain ⟨e0, e1, e2, e3, e4, e5, e6, e7⟩ := index_maps t
  funext j
  show k0_pay1 (F := Ideal) (iblk0 V c 1 t) (iblk0 V c 0 t) (iblk0 V c 2 t) j
      = scaleMatmul (V c main_arg0) (V c main_v21) (V c main_arg1) (((cfg0.win 3).blk t).view.emb j)
  refine (pay_apply (iblk0 V c 1 t) (iblk0 V c 0 t) (iblk0 V c 2 t) j).trans ?_
  unfold scaleMatmul
  refine Finset.sum_congr rfl fun k _ => ?_
  refine congrArg₂ (· * ·) (congrArg₂ (· * ·) ?_ ?_) ?_
  · show V c main_arg0 (((cfg0.win 0).blk t).view.emb (ix2 (⟨(j 0).val, (j 0).isLt⟩ : Fin 5000) k)) = V c main_arg0 _
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 128 + 1 * k.val = k.val
      omega
  · show V c main_v21 (((cfg0.win 1).blk t).view.emb (ix2 (⟨(j 0).val, (j 0).isLt⟩ : Fin 5000) (0 : Fin 2))) = V c main_v21 _
    refine congrArg (V c main_v21) (funext fun a => Fin.ext ?_)
    match a with
    | ⟨0, _⟩ =>
      show win0_1.index t (0 : Fin 2) * 5000 + 1 * (j 0).val = win0_3.index t (0 : Fin 2) * 5000 + 1 * (j 0).val
      omega
    | ⟨1, _⟩ =>
      show win0_1.index t (1 : Fin 2) * 2 + 1 * 0 = 0
      omega
  · show V c main_arg1 (((cfg0.win 2).blk t).view.emb (ix2 k (⟨(j 1).val, (j 1).isLt⟩ : Fin 128))) = V c main_arg1 _
    refine congrArg (V c main_arg1) (funext fun a => Fin.ext ?_)
    match a with
    | ⟨0, _⟩ =>
      show win0_2.index t (0 : Fin 2) * 128 + 1 * k.val = k.val
      omega
    | ⟨1, _⟩ =>
      show win0_2.index t (1 : Fin 2) * 128 + 1 * (j 1).val = win0_3.index t (1 : Fin 2) * 128 + 1 * (j 1).val
      omega

/-- An index of the result array lies in point t's block iff each coordinate lies in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v22).slice (win0_3.rect t)).set ↔ _
  rw [View.set_slice_whole, Rect.mem_set_unit]
  exact Iff.rfl

/-- Row r of the result lies in the block of point r / 5000: the twenty blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 :=
    ⟨⟨(i 0).val / 5000, lt_of_lt_of_eq (show (i 0).val / 5000 < 20 by omega) hN.symm⟩, rfl⟩
  obtain ⟨-, -, -, -, -, -, e6, e7⟩ := index_maps t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The result array after the region, whatever the region's entry contents `V`. -/
theorem final (c : Dev nD) :
    (dat0 V c).arrAt 3 cfg0.N = scaleMatmul (V c main_arg0) (V c main_v21) (V c main_arg1) :=
  (dat0 V c).arrAt_eq_of_cover 3 _ (fun t _ => flushed_eq V c t) cover

end Cert.KernelIdeal.FirstRegion

end
-- ==== Proof.MiddleRegion.lean ====
/-
  The middle kernel region: layer 1 after the edge stage fused with layer 2 before it.

  The aggregate of layer 1 is scaled by the destination-side factor, the bias row added and the result rectified; that
  is scaled by the source-side factor and multiplied with W2 on the matrix unit, into a zero accumulator. The region
  runs twenty grid points; point t loads rows 5000·t … 5000·t + 4999 of the aggregate and of the packed scale array,
  the whole bias row and the whole weight matrix, and writes the same rows of the result. So the result array after
  the region is `reluScaleMatmul` of the four arrays as the region finds them, whatever those are.
-/
import proofs.«122150_j2087354105940_2_alg».proof.Proof.Gen.KernelIdeal.Frame
import proofs.«122150_j2087354105940_2_alg».proof.Proof.Spec
import proofs.«122150_j2087354105940_2_alg».proof.Proof.Layout
import Idealize.ShloMosaic.Lib.Pipeline.Value
import Idealize.ShloMosaic.PureOps.Ideal.Laws

set_option maxRecDepth 16384

noncomputable section

namespace Cert.KernelIdeal.MiddleRegion

open Cert.KernelIdeal Cert.KernelIdeal.Gen Cert.Layers
open Idealize.ShloMosaic Idealize.ShloMosaic.TcCoe Idealize.SL.Sem Idealize.ShloMosaic.ValueIdx
open Idealize.ShloMosaic.Pipeline (Dat)

/-- The left operand's row is the output's row. -/
theorem lhs_row (i : S5000x64.Idx) (q : (dot_S5000x128_S128x64_S5000x64_1_0_0_1_n_n).contr.Idx) :
    ((dot_S5000x128_S128x64_S5000x64_1_0_0_1_n_n).lhsIdx i q 0).val = (i 0).val := by
  unfold DotDims.lhsIdx
  rw [dif_neg (show ¬(0 : Fin S5000x128.rank) ∈ (dot_S5000x128_S128x64_S5000x64_1_0_0_1_n_n).lhsBatch by decide),
    dif_pos (show (0 : Fin S5000x128.rank) ∈ (dot_S5000x128_S128x64_S5000x64_1_0_0_1_n_n).lhsNonContracting by decide)]
  rfl

/-- The right operand's column is the output's column. -/
theorem rhs_col (i : S5000x64.Idx) (q : (dot_S5000x128_S128x64_S5000x64_1_0_0_1_n_n).contr.Idx) :
    ((dot_S5000x128_S128x64_S5000x64_1_0_0_1_n_n).rhsIdx i q 1).val = (i 1).val := by
  unfold DotDims.rhsIdx
  rw [dif_neg (show ¬(1 : Fin S128x64.rank) ∈ (dot_S5000x128_S128x64_S5000x64_1_0_0_1_n_n).rhsBatch by decide),
    dif_pos (show (1 : Fin S128x64.rank) ∈ (dot_S5000x128_S128x64_S5000x64_1_0_0_1_n_n).rhsNonContracting by decide)]
  rfl

/-- The matrix unit's product into a zero accumulator, at row r and column c: ∑ k, L[r,k] · R[k,c]. -/
theorem matmul_apply (L : FVec Ideal S5000x128 .bf16) (R : FVec Ideal S128x64 .bf16) (y : S5000x64.Idx) :
    matmul dot_S5000x128_S128x64_S5000x64_1_0_0_1_n_n none L R (constant S5000x64 .f32 0x00000000#32) y
      = ∑ k : Fin 128, L (ix2 (⟨(y 0).val, (y 0).isLt⟩ : Fin 5000) k) * R (ix2 k (⟨(y 1).val, (y 1).isLt⟩ : Fin 64)) := by
  simp only [matmul]
  rw [Ideal.matmul_constant_zero_apply,
    ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : (dot_S5000x128_S128x64_S5000x64_1_0_0_1_n_n).lhsIdx y
      ((ValueIdx.contrEquiv1 dot_S5000x128_S128x64_S5000x64_1_0_0_1_n_n 128 rfl rfl).symm k)
      = ix2 (⟨(y 0).val, (y 0).isLt⟩ : Fin 5000) k := funext fun a => Fin.ext (by
    match a with
    | ⟨0, _⟩ => exact lhs_row _ _
    | ⟨1, _⟩ => exact ((dot_S5000x128_S128x64_S5000x64_1_0_0_1_n_n).lhsIdx_val_of_single rfl y _).trans hk)
  have er : (dot_S5000x128_S128x64_S5000x64_1_0_0_1_n_n).rhsIdx y
      ((ValueIdx.contrEquiv1 dot_S5000x128_S128x64_S5000x64_1_0_0_1_n_n 128 rfl rfl).symm k)
      = ix2 k (⟨(y 1).val, (y 1).isLt⟩ : Fin 64) := funext fun a => Fin.ext (by
    match a with
    | ⟨0, _⟩ => exact ((dot_S5000x128_S128x64_S5000x64_1_0_0_1_n_n).rhsIdx_val_of_single rfl y _).trans hk
    | ⟨1, _⟩ => exact rhs_col _ _)
  rw [el, er]

/-- The body's stored value at row r and column c of its block:
    ∑ k, (max (agg[r,k] · scale[r,1] + bias[0,k]) 0 · scale[r,0]) · w[k,c]. -/
theorem pay_apply (v0 : Vec Ideal S5000x2 .f32) (v4 : Vec Ideal S5000x128 .f32) (v8 : Vec Ideal S1x128 .f32)
    (v17 : Vec Ideal S128x64 .f32) (y : S5000x64.Idx) :
    k1_pay1 (F := Ideal) v0 v4 v8 v17 y
      = ∑ k : Fin 128,
          (max (v4 (ix2 (⟨(y 0).val, (y 0).isLt⟩ : Fin 5000) k) * v0 (ix2 (⟨(y 0).val, (y 0).isLt⟩ : Fin 5000) (1 : Fin 2))
                + v8 (ix2 (0 : Fin 1) k)) zeroWord
            * v0 (ix2 (⟨(y 0).val, (y 0).isLt⟩ : Fin 5000) (0 : Fin 2)))
          * v17 (ix2 k (⟨(y 1).val, (y 1).isLt⟩ : Fin 64)) := by
  unfold k1_pay1
  simp only [truncf_apply]
  rw [matmul_apply]
  refine Finset.sum_congr rfl fun k _ => ?_
  simp only [truncf_apply, mulf_apply, maximumf_apply, addf_apply, broadcast_apply]
  simp only [shapeCast_self, lanes128_apply, column0_apply, column1_apply, rows128_apply]
  rfl

variable (V : (c : Dev nD) → (b : Ref sig .tc) → Buf (Elt Ideal) ((c : Thread nD τ).loc b))

theorem offsets_zero : (![0, 0] : Fin 2 → Nat) = fun _ => 0 := funext fun a => by fin_cases a <;> rfl

/-- The five index maps over the twenty points: the row-blocked windows sit at block (t, 0), the bias row and the
    weights at (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is rows 5000·t … of `reluScaleMatmul` of the arrays as the region finds them. -/
theorem flushed_eq (c : Dev nD) (t : Fin cfg1.N) :
    (dat1 V c).flushed 4 t
      = ((cfg1.win 4).blk t).view.read (Elt Ideal)
          (reluScaleMatmul (V c main_v33) (V c main_v21) (V c main_v34) (V c main_arg3)) := by
  show (cfg1.win 4).cut (grid1.coords t) ((dat1 V c).after 4 t) = _
  rw [after1_4]
  unfold out1_4
  rw [View.canon_unit_zero offsets_zero]
  simp only [View.ld_unit_zero (S := S5000x2) offsets_zero, View.ld_unit_zero (S := S5000x128) offsets_zero,
    View.ld_unit_zero (S := S1x128) offsets_zero, View.ld_unit_zero (S := S128x64) offsets_zero]
  obtain ⟨e0, e1, e2, e3, e4, e5, e6, e7, e8, e9⟩ := index_maps t
  funext j
  show k1_pay1 (F := Ideal) (iblk1 V c 1 t) (iblk1 V c 0 t) (iblk1 V c 2 t) (iblk1 V c 3 t) j
      = reluScaleMatmul (V c main_v33) (V c main_v21) (V c main_v34) (V c main_arg3) (((cfg1.win 4).blk t).view.emb j)
  refine (pay_apply (iblk1 V c 1 t) (iblk1 V c 0 t) (iblk1 V c 2 t) (iblk1 V c 3 t) j).trans ?_
  unfold reluScaleMatmul
  refine Finset.sum_congr rfl fun k _ => ?_
  refine congrArg₂ (· * ·) (congrArg₂ (· * ·) (congrArg₂ max (congrArg₂ (· + ·) (congrArg₂ (· * ·) ?_ ?_) ?_) rfl) ?_) ?_
  · show V c main_v33 (((cfg1.win 0).blk t).view.emb (ix2 (⟨(j 0).val, (j 0).isLt⟩ : Fin 5000) k)) = V c main_v33 _
    refine congrArg (V c main_v33) (funext fun a => Fin.ext ?_)
    match a with
    | ⟨0, _⟩ =>
      show win1_0.index t (0 : Fin 2) * 5000 + 1 * (j 0).val = win1_4.index t (0 : Fin 2) * 5000 + 1 * (j 0).val
      omega
    | ⟨1, _⟩ =>
      show win1_0.index t (1 : Fin 2) * 128 + 1 * k.val = k.val
      omega
  · show V c main_v21 (((cfg1.win 1).blk t).view.emb (ix2 (⟨(j 0).val, (j 0).isLt⟩ : Fin 5000) (1 : Fin 2))) = V c main_v21 _
    refine congrArg (V c main_v21) (funext fun a => Fin.ext ?_)
    match a with
    | ⟨0, _⟩ =>
      show win1_1.index t (0 : Fin 2) * 5000 + 1 * (j 0).val = win1_4.index t (0 : Fin 2) * 5000 + 1 * (j 0).val
      omega
    | ⟨1, _⟩ =>
      show win1_1.index t (1 : Fin 2) * 2 + 1 * 1 = 1
      omega
  · show V c main_v34 (((cfg1.win 2).blk t).view.emb (ix2 (0 : Fin 1) k)) = V c main_v34 _
    refine congrArg (V c main_v34) (funext fun a => Fin.ext ?_)
    match a with
    | ⟨0, _⟩ =>
      show win1_2.index t (0 : Fin 2) * 1 + 1 * 0 = 0
      omega
    | ⟨1, _⟩ =>
      show win1_2.index t (1 : Fin 2) * 128 + 1 * k.val = k.val
      omega
  · show V c main_v21 (((cfg1.win 1).blk t).view.emb (ix2 (⟨(j 0).val, (j 0).isLt⟩ : Fin 5000) (0 : Fin 2))) = V c main_v21 _
    refine congrArg (V c main_v21) (funext fun a => Fin.ext ?_)
    match a with
    | ⟨0, _⟩ =>
      show win1_1.index t (0 : Fin 2) * 5000 + 1 * (j 0).val = win1_4.index t (0 : Fin 2) * 5000 + 1 * (j 0).val
      omega
    | ⟨1, _⟩ =>
      show win1_1.index t (1 : Fin 2) * 2 + 1 * 0 = 0
      omega
  · show V c main_arg3 (((cfg1.win 3).blk t).view.emb (ix2 k (⟨(j 1).val, (j 1).isLt⟩ : Fin 64))) = V c main_arg3 _
    refine congrArg (V c main_arg3) (funext fun a => Fin.ext ?_)
    match a with
    | ⟨0, _⟩ =>
      show win1_3.index t (0 : Fin 2) * 128 + 1 * k.val = k.val
      omega
    | ⟨1, _⟩ =>
      show win1_3.index t (1 : Fin 2) * 64 + 1 * (j 1).val = win1_4.index t (1 : Fin 2) * 64 + 1 * (j 1).val
      omega

/-- An index of the result array lies in point t's block iff each coordinate lies in the block's range on its axis. -/
theorem mem_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v35).slice (win1_4.rect t)).set ↔ _
  rw [View.set_slice_whole, Rect.mem_set_unit]
  exact Iff.rfl

/-- Row r of the result lies in the block of point r / 5000: the twenty blocks cover the array. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 :=
    ⟨⟨(i 0).val / 5000, lt_of_lt_of_eq (show (i 0).val / 5000 < 20 by omega) hN.symm⟩, rfl⟩
  obtain ⟨-, -, -, -, -, -, -, -, e8, e9⟩ := index_maps t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The result array after the region, whatever the region's entry contents `V`. -/
theorem final (c : Dev nD) :
    (dat1 V c).arrAt 4 cfg1.N = reluScaleMatmul (V c main_v33) (V c main_v21) (V c main_v34) (V c main_arg3) :=
  (dat1 V c).arrAt_eq_of_cover 4 _ (fun t _ => flushed_eq V c t) cover

end Cert.KernelIdeal.MiddleRegion

end
-- ==== Proof.FinalRegion.lean ====
/-
  The last kernel region: the aggregate of layer 2 scaled by the destination-side factor, the bias added, rectified.

  The region runs twenty grid points; point t loads rows 5000·t … 5000·t + 4999 of the aggregate and of the packed
  scale array and the whole bias row, and writes the same rows of the result. So the result array after the region is
  `scaleBiasRelu` of the three arrays as the region finds them, whatever those are.
-/
import proofs.«122150_j2087354105940_2_alg».proof.Proof.Gen.KernelIdeal.Frame
import proofs.«122150_j2087354105940_2_alg».proof.Proof.Spec
import proofs.«122150_j2087354105940_2_alg».proof.Proof.Layout
import Idealize.ShloMosaic.Lib.Pipeline.Value
import Idealize.ShloMosaic.PureOps.Ideal.Laws

set_option maxRecDepth 16384

noncomputable section

namespace Cert.KernelIdeal.FinalRegion

open Cert.KernelIdeal Cert.KernelIdeal.Gen Cert.Layers
open Idealize.ShloMosaic Idealize.ShloMosaic.TcCoe Idealize.SL.Sem Idealize.ShloMosaic.ValueIdx
open Idealize.ShloMosaic.Pipeline (Dat)

/-- The body's stored value at row r and lane c of its block: max (agg[r,c] · scale[r,1] + bias[0,c]) 0. -/
theorem pay_apply (v0 : Vec Ideal S5000x2 .f32) (v3 : Vec Ideal S5000x64 .f32) (v7 : Vec Ideal S1x64 .f32) (y : S5000x64.Idx) :
    k2_pay1 (F := Ideal) v0 v3 v7 y
      = max (v3 y * v0 (ix2 (⟨(y 0).val, (y 0).isLt⟩ : Fin 5000) (1 : Fin 2))
              + v7 (ix2 (0 : Fin 1) (⟨(y 1).val, (y 1).isLt⟩ : Fin 64))) zeroWord := by
  unfold k2_pay1
  simp only [maximumf_apply, addf_apply, mulf_apply, broadcast_apply]
  rw [shapeCast_self, shapeCast_self, shapeCast_self, lanes64_apply, column1_apply, rows64_apply]
  rfl

variable (V : (c : Dev nD) → (b : Ref sig .tc) → Buf (Elt Ideal) ((c : Thread nD τ).loc b))

theorem offsets_zero : (![0, 0] : Fin 2 → Nat) = fun _ => 0 := funext fun a => by fin_cases a <;> rfl

/-- The four index maps over the twenty points: the row-blocked windows sit at block (t, 0), the bias row at (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is rows 5000·t … of `scaleBiasRelu` of the arrays as the region finds them. -/
theorem flushed_eq (c : Dev nD) (t : Fin cfg2.N) :
    (dat2 V c).flushed 3 t
      = ((cfg2.win 3).blk t).view.read (Elt Ideal) (scaleBiasRelu (V c main_v46) (V c main_v21) (V c main_v47)) := by
  show (cfg2.win 3).cut (grid2.coords t) ((dat2 V c).after 3 t) = _
  rw [after2_3]
  unfold out2_3
  rw [View.canon_unit_zero offsets_zero]
  simp only [View.ld_unit_zero (S := S5000x2) offsets_zero, View.ld_unit_zero (S := S5000x64) offsets_zero,
    View.ld_unit_zero (S := S1x64) offsets_zero]
  obtain ⟨e0, e1, e2, e3, e4, e5, e6, e7⟩ := index_maps t
  funext j
  show k2_pay1 (F := Ideal) (iblk2 V c 1 t) (iblk2 V c 0 t) (iblk2 V c 2 t) j
      = scaleBiasRelu (V c main_v46) (V c main_v21) (V c main_v47) (((cfg2.win 3).blk t).view.emb j)
  refine (pay_apply (iblk2 V c 1 t) (iblk2 V c 0 t) (iblk2 V c 2 t) j).trans ?_
  unfold scaleBiasRelu
  refine congrArg₂ max (congrArg₂ (· + ·) (congrArg₂ (· * ·) ?_ ?_) ?_) rfl
  · show V c main_v46 (((cfg2.win 0).blk t).view.emb j) = V c main_v46 (((cfg2.win 3).blk t).view.emb j)
    refine congrArg (V c main_v46) (funext fun a => Fin.ext ?_)
    match a with
    | ⟨0, _⟩ =>
      show win2_0.index t (0 : Fin 2) * 5000 + 1 * (j 0).val = win2_3.index t (0 : Fin 2) * 5000 + 1 * (j 0).val
      omega
    | ⟨1, _⟩ =>
      show win2_0.index t (1 : Fin 2) * 64 + 1 * (j 1).val = win2_3.index t (1 : Fin 2) * 64 + 1 * (j 1).val
      omega
  · show V c main_v21 (((cfg2.win 1).blk t).view.emb (ix2 (⟨(j 0).val, (j 0).isLt⟩ : Fin 5000) (1 : Fin 2))) = V c main_v21 _
    refine congrArg (V c main_v21) (funext fun a => Fin.ext ?_)
    match a with
    | ⟨0, _⟩ =>
      show win2_1.index t (0 : Fin 2) * 5000 + 1 * (j 0).val = win2_3.index t (0 : Fin 2) * 5000 + 1 * (j 0).val
      omega
    | ⟨1, _⟩ =>
      show win2_1.index t (1 : Fin 2) * 2 + 1 * 1 = 1
      omega
  · show V c main_v47 (((cfg2.win 2).blk t).view.emb (ix2 (0 : Fin 1) (⟨(j 1).val, (j 1).isLt⟩ : Fin 64))) = V c main_v47 _
    refine congrArg (V c main_v47) (funext fun a => Fin.ext ?_)
    match a with
    | ⟨0, _⟩ =>
      show win2_2.index t (0 : Fin 2) * 1 + 1 * 0 = 0
      omega
    | ⟨1, _⟩ =>
      show win2_2.index t (1 : Fin 2) * 64 + 1 * (j 1).val = win2_3.index t (1 : Fin 2) * 64 + 1 * (j 1).val
      omega

/-- An index of the result array lies in point t's block iff each coordinate lies in the block's range on its axis. -/
theorem mem_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v48).slice (win2_3.rect t)).set ↔ _
  rw [View.set_slice_whole, Rect.mem_set_unit]
  exact Iff.rfl

/-- Row r of the result lies in the block of point r / 5000: the twenty blocks cover the array. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 :=
    ⟨⟨(i 0).val / 5000, lt_of_lt_of_eq (show (i 0).val / 5000 < 20 by omega) hN.symm⟩, rfl⟩
  obtain ⟨-, -, -, -, -, -, e6, e7⟩ := index_maps t
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- The result array after the region, whatever the region's entry contents `V`. -/
theorem final (c : Dev nD) :
    (dat2 V c).arrAt 3 cfg2.N = scaleBiasRelu (V c main_v46) (V c main_v21) (V c main_v47) :=
  (dat2 V c).arrAt_eq_of_cover 3 _ (fun t _ => flushed_eq V c t) cover

end Cert.KernelIdeal.FinalRegion

end
-- ==== Proof.KernelStages.lean ====
/-
  The idealized kernel's buffers at its segment boundaries, named by the reference's stages.

  @main is: the degree stage (the two scale vectors from the edge lists, packed as the two columns of one array), the
  first region, the edge stage of layer 1, the middle region, the edge stage of layer 2, the last region. A boundary's
  contents are a fold from the launch memory. Read at the buffers that matter:
    * no stretch and no region writes an argument: it reads back as launched;
    * the scale vectors are the reference's (the same operations of the same edge lists), so column 0 of the packed
      array is the source-side vector and column 1 the destination-side one;
    * each region's result array is its layer function of the arrays it is entered with (the region modules);
    * an edge stage gathers rows of the previous region's result by the source indices and adds them into rows by the
      destination indices — the reference's edge stage, the same operations. A change of float format between them is
      the identity over the extended reals.
-/
import proofs.«122150_j2087354105940_2_alg».proof.Proof.Gen.KernelIdeal.Frame
import proofs.«122150_j2087354105940_2_alg».proof.Proof.RefRead
import proofs.«122150_j2087354105940_2_alg».proof.Proof.RefLayers
import proofs.«122150_j2087354105940_2_alg».proof.Proof.Spec
import proofs.«122150_j2087354105940_2_alg».proof.Proof.FirstRegion
import proofs.«122150_j2087354105940_2_alg».proof.Proof.MiddleRegion
import proofs.«122150_j2087354105940_2_alg».proof.Proof.FinalRegion
import Idealize.ShloMosaic.Lib.StableHlo.Run
import Idealize.ShloMosaic.Lib.Pipeline.Value
import Idealize.ShloMosaic.Lib.ValueLayout

set_option maxRecDepth 16384

noncomputable section

namespace Cert.KernelIdeal.Stages

open Cert.KernelIdeal Cert.KernelIdeal.Gen Cert.Layers
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg) (c : Dev nD)

/-! ## The arguments at the boundaries -/

set_option maxHeartbeats 8000000 in
theorem W5_arg0 : W5 m ρ c (Proc.devRef .tc main_arg0) = (m ((c : Thread nD τ).loc main_arg0)) := by
  dsimp only [W5, W4, W3, W2, W1]; after_results_simp
set_option maxHeartbeats 8000000 in
theorem W5_arg1 : W5 m ρ c (Proc.devRef .tc main_arg1) = (m ((c : Thread nD τ).loc main_arg1)) := by
  dsimp only [W5, W4, W3, W2, W1]; after_results_simp
set_option maxHeartbeats 8000000 in
theorem W5_arg2 : W5 m ρ c (Proc.devRef .tc main_arg2) = (m ((c : Thread nD τ).loc main_arg2)) := by
  dsimp only [W5, W4, W3, W2, W1]; after_results_simp
set_option maxHeartbeats 8000000 in
theorem W5_arg3 : W5 m ρ c (Proc.devRef .tc main_arg3) = (m ((c : Thread nD τ).loc main_arg3)) := by
  dsimp only [W5, W4, W3, W2, W1]; after_results_simp
set_option maxHeartbeats 8000000 in
theorem W5_arg4 : W5 m ρ c (Proc.devRef .tc main_arg4) = (m ((c : Thread nD τ).loc main_arg4)) := by
  dsimp only [W5, W4, W3, W2, W1]; after_results_simp
set_option maxHeartbeats 8000000 in
theorem W5_arg5 : W5 m ρ c (Proc.devRef .tc main_arg5) = (m ((c : Thread nD τ).loc main_arg5)) := by
  dsimp only [W5, W4, W3, W2, W1]; after_results_simp
set_option maxHeartbeats 8000000 in
theorem W5_arg6 : W5 m ρ c (Proc.devRef .tc main_arg6) = (m ((c : Thread nD τ).loc main_arg6)) := by
  dsimp only [W5, W4, W3, W2, W1]; after_results_simp

theorem W6_arg2 : W6 m ρ c (Proc.devRef .tc main_arg2) = (m ((c : Thread nD τ).loc main_arg2)) :=
  (W6_of_ne m ρ c main_arg2 (by decide)).trans (W5_arg2 m ρ c)
theorem W6_arg3 : W6 m ρ c (Proc.devRef .tc main_arg3) = (m ((c : Thread nD τ).loc main_arg3)) :=
  (W6_of_ne m ρ c main_arg3 (by decide)).trans (W5_arg3 m ρ c)
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)

set_option maxHeartbeats 8000000 in
theorem W7_arg3 : W7 m ρ c (Proc.devRef .tc main_arg3) = (m ((c : Thread nD τ).loc main_arg3)) := by
  dsimp only [W7]; after_results_simp; exact W6_arg3 m ρ c
set_option maxHeartbeats 8000000 in
theorem W7_arg4 : W7 m ρ c (Proc.devRef .tc main_arg4) = (m ((c : Thread nD τ).loc main_arg4)) := by
  dsimp only [W7]; after_results_simp; exact W6_arg4 m ρ c
set_option maxHeartbeats 8000000 in
theorem W7_arg5 : W7 m ρ c (Proc.devRef .tc main_arg5) = (m ((c : Thread nD τ).loc main_arg5)) := by
  dsimp only [W7]; after_results_simp; exact W6_arg5 m ρ c
set_option maxHeartbeats 8000000 in
theorem W7_arg6 : W7 m ρ c (Proc.devRef .tc main_arg6) = (m ((c : Thread nD τ).loc main_arg6)) := by
  dsimp only [W7]; after_results_simp; exact W6_arg6 m ρ c

theorem W8_arg4 : W8 m ρ c (Proc.devRef .tc main_arg4) = (m ((c : Thread nD τ).loc main_arg4)) :=
  (W8_of_ne m ρ c main_arg4 (by decide)).trans (W7_arg4 m ρ c)
theorem W8_arg5 : W8 m ρ c (Proc.devRef .tc main_arg5) = (m ((c : Thread nD τ).loc main_arg5)) :=
  (W8_of_ne m ρ c main_arg5 (by decide)).trans (W7_arg5 m ρ c)
theorem W8_arg6 : W8 m ρ c (Proc.devRef .tc main_arg6) = (m ((c : Thread nD τ).loc main_arg6)) :=
  (W8_of_ne m ρ c main_arg6 (by decide)).trans (W7_arg6 m ρ c)

/-! ## The degree stage: the two scale vectors, packed

Each stretch from ANY contents `W`, at the buffers the next one reads; then the stretches chained from the launch. -/

section Stretches
variable (W : Valuation τ sig (Elt Ideal))

set_option maxHeartbeats 8000000 in
/-- Has the node an out-edge. -/
theorem has_out : StableHlo.after (hostOps0 (F := Ideal)) W (Proc.devRef .tc main_v8)
    = Cert.ReferenceIdeal.Read.val_main_v8 (F := Ideal) (W (Proc.devRef .tc main_arg5)) := by
  after_results_simp; rfl
set_option maxHeartbeats 8000000 in
/-- The reciprocal square root of the out-degree, at least 1. -/
theorem rsqrt_out : StableHlo.after (hostOps0 (F := Ideal)) W (Proc.devRef .tc main_v11)
    = Cert.ReferenceIdeal.Read.val_main_v11 (F := Ideal) (W (Proc.devRef .tc main_arg5)) := by
  after_results_simp; rfl
set_option maxHeartbeats 8000000 in
theorem zero_out : StableHlo.after (hostOps0 (F := Ideal)) W (Proc.devRef .tc main_cst_4)
    = Cert.ReferenceIdeal.Read.val_main_cst_4 (F := Ideal) := by
  after_results_simp; rfl
set_option maxHeartbeats 8000000 in
/-- The in-degree. -/
theorem in_degree : StableHlo.after (hostOps0 (F := Ideal)) W (Proc.devRef .tc main_v6)
    = Cert.ReferenceIdeal.Read.val_main_v6 (F := Ideal) (W (Proc.devRef .tc main_arg6)) := by
  after_results_simp; rfl

set_option maxHeartbeats 8000000 in
/-- The source-side vector: the reciprocal square root where there is an out-edge, else zero. -/
theorem where_out : StableHlo.after (hostOps0_1 (F := Ideal)) W (Proc.devRef .tc main_v12)
    = select (W (Proc.devRef .tc main_v8)) (W (Proc.devRef .tc main_v11))
        (broadcastInDim S100000 ![] bcast_S_S100000 (W (Proc.devRef .tc main_cst_4))) := by
  after_results_simp; rfl
set_option maxHeartbeats 8000000 in
theorem where_out_keeps : StableHlo.after (hostOps0_1 (F := Ideal)) W (Proc.devRef .tc main_v6) = W (Proc.devRef .tc main_v6) := by
  after_results_simp

set_option maxHeartbeats 8000000 in
/-- Has the node an in-edge. -/
theorem has_in : StableHlo.after (hostOps0_2 (F := Ideal)) W (Proc.devRef .tc main_v14)
    = cmpf (F := Ideal) (φ := .f32) .ogt (W (Proc.devRef .tc main_v6)) (Cert.ReferenceIdeal.Read.val_main_v13 (F := Ideal)) := by
  after_results_simp; rfl
set_option maxHeartbeats 8000000 in
/-- The reciprocal square root of the in-degree, at least 1. -/
theorem rsqrt_in : StableHlo.after (hostOps0_2 (F := Ideal)) W (Proc.devRef .tc main_v17)
    = Host.rsqrt (F := Ideal) (φ := .f32) (maximumf (F := Ideal) (φ := .f32) (W (Proc.devRef .tc main_v6)) (Cert.ReferenceIdeal.Read.val_main_v15 (F := Ideal))) := by
  after_results_simp; rfl
set_option maxHeartbeats 8000000 in
theorem zero_in : StableHlo.after (hostOps0_2 (F := Ideal)) W (Proc.devRef .tc main_cst_7)
    = Cert.ReferenceIdeal.Read.val_main_cst_7 (F := Ideal) := by
  after_results_simp; rfl
set_option maxHeartbeats 8000000 in
theorem in_stretch_keeps : StableHlo.after (hostOps0_2 (F := Ideal)) W (Proc.devRef .tc main_v12) = W (Proc.devRef .tc main_v12) := by
  after_results_simp

set_option maxHeartbeats 8000000 in
/-- The destination-side vector: the reciprocal square root where there is an in-edge, else zero. -/
theorem where_in : StableHlo.after (hostOps0_3 (F := Ideal)) W (Proc.devRef .tc main_v18)
    = select (W (Proc.devRef .tc main_v14)) (W (Proc.devRef .tc main_v17))
        (broadcastInDim S100000 ![] bcast_S_S100000 (W (Proc.devRef .tc main_cst_7))) := by
  after_results_simp; rfl
set_option maxHeartbeats 8000000 in
theorem where_in_keeps : StableHlo.after (hostOps0_3 (F := Ideal)) W (Proc.devRef .tc main_v12) = W (Proc.devRef .tc main_v12) := by
  after_results_simp

/-- The packing stretch: the two vectors as the two columns of one [nodes, 2] array. -/
theorem pack_stretch :
    StableHlo.after (hostOps0_4 (F := Ideal)) W (Proc.devRef .tc main_v21)
      = concatenate S100000x2 1
          [⟨S100000x1, broadcastInDim S100000x1 ![0] bcast_S100000_S100000x1_0 (W (Proc.devRef .tc main_v12))⟩,
           ⟨S100000x1, broadcastInDim S100000x1 ![0] bcast_S100000_S100000x1_0 (W (Proc.devRef .tc main_v18))⟩]
          concatenates_S100000x1_S100000x1_S100000x2_d1 := by
  after_results

end Stretches

/-- The source-side scale vector is the reference's. -/
theorem source_scale : W4 m ρ c (Proc.devRef .tc main_v12)
    = Cert.ReferenceIdeal.Read.val_main_v12 (F := Ideal) (m ((c : Thread nD τ).loc main_arg5)) := by
  show StableHlo.after hostOps0_3 (W3 m ρ c) (Proc.devRef .tc main_v12) = _
  rw [where_in_keeps]
  show StableHlo.after hostOps0_2 (W2 m ρ c) (Proc.devRef .tc main_v12) = _
  rw [in_stretch_keeps]
  show StableHlo.after hostOps0_1 (W1 m ρ c) (Proc.devRef .tc main_v12) = _
  rw [where_out]
  show select (StableHlo.after hostOps0 (W0 m ρ c) (Proc.devRef .tc main_v8)) (StableHlo.after hostOps0 (W0 m ρ c) (Proc.devRef .tc main_v11))
      (broadcastInDim S100000 ![] bcast_S_S100000 (StableHlo.after hostOps0 (W0 m ρ c) (Proc.devRef .tc main_cst_4))) = _
  rw [has_out, rsqrt_out, zero_out]
  rfl

/-- The destination-side scale vector is the reference's. -/
theorem dest_scale : W4 m ρ c (Proc.devRef .tc main_v18)
    = Cert.ReferenceIdeal.Read.val_main_v18 (F := Ideal) (m ((c : Thread nD τ).loc main_arg6)) := by
  show StableHlo.after hostOps0_3 (W3 m ρ c) (Proc.devRef .tc main_v18) = _
  rw [where_in]
  show select (StableHlo.after hostOps0_2 (W2 m ρ c) (Proc.devRef .tc main_v14)) (StableHlo.after hostOps0_2 (W2 m ρ c) (Proc.devRef .tc main_v17))
      (broadcastInDim S100000 ![] bcast_S_S100000 (StableHlo.after hostOps0_2 (W2 m ρ c) (Proc.devRef .tc main_cst_7))) = _
  rw [has_in, rsqrt_in, zero_in]
  show select (cmpf (F := Ideal) (φ := .f32) .ogt (StableHlo.after hostOps0_1 (W1 m ρ c) (Proc.devRef .tc main_v6)) _)
      (Host.rsqrt (F := Ideal) (φ := .f32) (maximumf (F := Ideal) (φ := .f32) (StableHlo.after hostOps0_1 (W1 m ρ c) (Proc.devRef .tc main_v6)) _)) _ = _
  rw [where_out_keeps]
  show select (cmpf (F := Ideal) (φ := .f32) .ogt (StableHlo.after hostOps0 (W0 m ρ c) (Proc.devRef .tc main_v6)) _)
      (Host.rsqrt (F := Ideal) (φ := .f32) (maximumf (F := Ideal) (φ := .f32) (StableHlo.after hostOps0 (W0 m ρ c) (Proc.devRef .tc main_v6)) _)) _ = _
  rw [in_degree]
  rfl

/-! ## The packed scale array -/

/-- The packed array at the first region's entry: the two reference vectors as its columns. -/
theorem packed_eq : V5 m ρ c main_v21
    = concatenate S100000x2 1
        [⟨S100000x1, broadcastInDim S100000x1 ![0] bcast_S100000_S100000x1_0 (Cert.ReferenceIdeal.Read.val_main_v12 (F := Ideal) (m ((c : Thread nD τ).loc main_arg5)))⟩,
         ⟨S100000x1, broadcastInDim S100000x1 ![0] bcast_S100000_S100000x1_0 (Cert.ReferenceIdeal.Read.val_main_v18 (F := Ideal) (m ((c : Thread nD τ).loc main_arg6)))⟩]
        concatenates_S100000x1_S100000x1_S100000x2_d1 := by
  show StableHlo.after hostOps0_4 (W4 m ρ c) (Proc.devRef .tc main_v21) = _
  rw [pack_stretch, source_scale, dest_scale]

/-- Column 0 of the packed array holds the source-side factors. -/
theorem packed_col0 (r : Fin 100000) :
    V5 m ρ c main_v21 (ix2 r (0 : Fin 2)) = Cert.ReferenceIdeal.Read.val_main_v12 (F := Ideal) (m ((c : Thread nD τ).loc main_arg5)) (ix1 r) := by
  rw [packed_eq]
  refine (concatenate_pair_apply_left (t := S100000x2) (s₁ := S100000x1) (s₂ := S100000x1) _ _ _ _ (ix2 r (0 : Fin 2)) rfl
    (ix2 r (0 : Fin 1)) (fun b => ?_)).trans ?_
  · match b with
    | ⟨0, _⟩ => rfl
    | ⟨1, _⟩ => rfl
  · exact broadcastInDim_apply _ bcast_S100000_S100000x1_0 _ _ (ix1 r) (fun a => match a with
      | ⟨0, _⟩ => by show r.val = if (100000 : Nat) = 1 then 0 else r.val; rw [if_neg (by decide)])

/-- Column 1 of the packed array holds the destination-side factors. -/
theorem packed_col1 (r : Fin 100000) :
    V5 m ρ c main_v21 (ix2 r (1 : Fin 2)) = Cert.ReferenceIdeal.Read.val_main_v18 (F := Ideal) (m ((c : Thread nD τ).loc main_arg6)) (ix1 r) := by
  rw [packed_eq]
  refine (concatenate_pair_apply_right (t := S100000x2) (s₁ := S100000x1) (s₂ := S100000x1) _ _ _ _ (ix2 r (1 : Fin 2)) rfl rfl
    (ix2 r (0 : Fin 1)) (fun b hb => ?_) rfl).trans ?_
  · match b with
    | ⟨0, _⟩ => rfl
    | ⟨1, _⟩ => exact absurd rfl hb
  · exact broadcastInDim_apply _ bcast_S100000_S100000x1_0 _ _ (ix1 r) (fun a => match a with
      | ⟨0, _⟩ => by show r.val = if (100000 : Nat) = 1 then 0 else r.val; rw [if_neg (by decide)])

/-! ## Layer 1 -/

/-- The first region's result is the reference's scaled features times W1. -/
theorem layer1_out : W6 m ρ c (Proc.devRef .tc main_v22)
    = Cert.ReferenceIdeal.Read.val_main_v22 (F := Ideal) (m ((c : Thread nD τ).loc main_arg0)) (m ((c : Thread nD τ).loc main_arg1)) (m ((c : Thread nD τ).loc main_arg5)) := by
  refine (W6_arr m ρ c 3).trans ?_
  rw [FirstRegion.final (V5 m ρ) c]
  show scaleMatmul (W5 m ρ c (Proc.devRef .tc main_arg0)) (V5 m ρ c main_v21) (W5 m ρ c (Proc.devRef .tc main_arg1)) = _
  rw [W5_arg0, W5_arg1]
  exact (Cert.ReferenceIdeal.Layers.layer1 _ _ _ (V5 m ρ c main_v21) (packed_col0 m ρ c)).symm

section EdgeStage1
variable (W : Valuation τ sig (Elt Ideal))

set_option maxHeartbeats 8000000 in
/-- The edge stage of layer 1 from any contents: rows of the first region's result gathered by the source indices
    and added into rows by the destination indices (the conversion between is the identity). -/
theorem edge_stage1 : StableHlo.after (hostOps1 (F := Ideal)) W (Proc.devRef .tc main_v33)
    = Host.scatterAdd (F := Ideal) (φ := .f32) Cert.ReferenceIdeal.scatter_S100000x128_S1600000x1_S1600000x128_1_0_0_1
        (Cert.ReferenceIdeal.Read.val_main_v30 (F := Ideal)) (Cert.ReferenceIdeal.Read.val_main_v31 (F := Ideal) (W (Proc.devRef .tc main_arg6)))
        (Host.gather Cert.ReferenceIdeal.gather_S100000x128_S1600000x1_S1600000x128_1_0_n_n_0_1_1128
          (W (Proc.devRef .tc main_v22)) (Cert.ReferenceIdeal.Read.val_main_v28 (F := Ideal) (W (Proc.devRef .tc main_arg5)))) := by
  after_results_simp; rfl

set_option maxHeartbeats 8000000 in
/-- The bias vector reshaped to a row, at lane k. -/
theorem bias_row1 (k : Fin 128) :
    StableHlo.after (hostOps1 (F := Ideal)) W (Proc.devRef .tc main_v34) (ix2 (0 : Fin 1) k) = W (Proc.devRef .tc main_arg2) (ix1 k) := by
  after_results_simp
  exact shapeCast_a_1a_apply _ _ 0 k

set_option maxHeartbeats 8000000 in
theorem scales_keep1 : StableHlo.after (hostOps1 (F := Ideal)) W (Proc.devRef .tc main_v21) = W (Proc.devRef .tc main_v21) := by
  after_results_simp

end EdgeStage1

/-- The aggregate of layer 1 is the reference's. -/
theorem agg1 : V7 m ρ c main_v33
    = Cert.ReferenceIdeal.Read.val_main_v32 (F := Ideal) (m ((c : Thread nD τ).loc main_arg0)) (m ((c : Thread nD τ).loc main_arg1)) (m ((c : Thread nD τ).loc main_arg5)) (m ((c : Thread nD τ).loc main_arg6)) := by
  show StableHlo.after hostOps1 (W6 m ρ c) (Proc.devRef .tc main_v33) = _
  rw [edge_stage1, layer1_out, W6_arg5, W6_arg6]
  rfl

/-- The first region leaves the packed array as it found it. -/
theorem W6_scales : W6 m ρ c (Proc.devRef .tc main_v21) = V5 m ρ c main_v21 :=
  (W6_arr m ρ c 1).trans (((dat0 (V5 m ρ) c).arrAt_in 1 rfl _).trans (A_eq0 (V5 m ρ) c 1))

theorem V7_scales : V7 m ρ c main_v21 = V5 m ρ c main_v21 :=
  (scales_keep1 (W6 m ρ c)).trans (W6_scales m ρ c)

/-! ## Layer 2 -/

/-- The middle region's result is the reference's rectified, scaled layer-1 output times W2. -/
theorem layer2_pre : W8 m ρ c (Proc.devRef .tc main_v35)
    = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (W8_arr m ρ c 4).trans ?_
  rw [MiddleRegion.final (V7 m ρ) c, agg1, V7_scales]
  show reluScaleMatmul _ _ (V7 m ρ c main_v34) (W7 m ρ c (Proc.devRef .tc main_arg3)) = _
  rw [W7_arg3]
  exact (Cert.ReferenceIdeal.Layers.layer2 _ _ _ _ _ _ (V5 m ρ c main_v21) (V7 m ρ c main_v34) (packed_col0 m ρ c) (packed_col1 m ρ c)
    (fun k => (bias_row1 (W6 m ρ c) k).trans (congrFun (W6_arg2 m ρ c) (ix1 k)))).symm

section EdgeStage2
variable (W : Valuation τ sig (Elt Ideal))

set_option maxHeartbeats 8000000 in
/-- The edge stage of layer 2 from any contents. -/
theorem edge_stage2 : StableHlo.after (hostOps2 (F := Ideal)) W (Proc.devRef .tc main_v46)
    = Host.scatterAdd (F := Ideal) (φ := .f32) Cert.ReferenceIdeal.scatter_S100000x64_S1600000x1_S1600000x64_1_0_0_1
        (Cert.ReferenceIdeal.Read.val_main_v70 (F := Ideal)) (Cert.ReferenceIdeal.Read.val_main_v71 (F := Ideal) (W (Proc.devRef .tc main_arg6)))
        (Host.gather Cert.ReferenceIdeal.gather_S100000x64_S1600000x1_S1600000x64_1_0_n_n_0_1_164
          (W (Proc.devRef .tc main_v35)) (Cert.ReferenceIdeal.Read.val_main_v68 (F := Ideal) (W (Proc.devRef .tc main_arg5)))) := by
  after_results_simp; rfl

set_option maxHeartbeats 8000000 in
/-- The bias vector reshaped to a row, at lane k. -/
theorem bias_row2 (k : Fin 64) :
    StableHlo.after (hostOps2 (F := Ideal)) W (Proc.devRef .tc main_v47) (ix2 (0 : Fin 1) k) = W (Proc.devRef .tc main_arg4) (ix1 k) := by
  after_results_simp
  exact shapeCast_a_1a_apply _ _ 0 k

set_option maxHeartbeats 8000000 in
theorem scales_keep2 : StableHlo.after (hostOps2 (F := Ideal)) W (Proc.devRef .tc main_v21) = W (Proc.devRef .tc main_v21) := by
  after_results_simp

end EdgeStage2

/-- The aggregate of layer 2 is the reference's. -/
theorem agg2 : V9 m ρ c main_v46
    = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  show StableHlo.after hostOps2 (W8 m ρ c) (Proc.devRef .tc main_v46) = _
  rw [edge_stage2, layer2_pre, W8_arg5, W8_arg6]
  rfl

/-- The middle region leaves the packed array as it found it. -/
theorem W8_scales : W8 m ρ c (Proc.devRef .tc main_v21) = V7 m ρ c main_v21 :=
  (W8_arr m ρ c 1).trans (((dat1 (V7 m ρ) c).arrAt_in 1 rfl _).trans (A_eq1 (V7 m ρ) c 1))

theorem V9_scales : V9 m ρ c main_v21 = V5 m ρ c main_v21 :=
  (scales_keep2 (W8 m ρ c)).trans ((W8_scales m ρ c).trans (V7_scales m ρ c))

/-- THE RESULT: the last boundary's contents at the result buffer are the reference's result term of the arguments. -/
theorem result : W10 m ρ c (Proc.devRef .tc main_v48)
    = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 3).trans ?_
  rw [FinalRegion.final (V9 m ρ) c, agg2, V9_scales]
  exact (Cert.ReferenceIdeal.Layers.layer2_out _ _ _ _ _ _ _ (V5 m ρ c main_v21) (V9 m ρ c main_v47) (packed_col1 m ρ c)
    (fun k => (bias_row2 (W8 m ρ c) k).trans (congrFun (W8_arg4 m ρ c) (ix1 k)))).symm

end Cert.KernelIdeal.Stages

end
-- ==== Proof.lean ====
/-
  Two graph-convolution layers with symmetric degree normalisation and a rectifier, as a tiled kernel and as plain
  array code: the two compute the same extended reals.

  With A the edge list's adjacency (an edge from `src[e]` to `dst[e]`), s the vector of reciprocal square roots of the
  out-degrees and d that of the in-degrees (zero where the degree is zero), one layer is

      h ↦ max (d ⊙ (Aᵀ-aggregate of ((s ⊙ h) · W)) + b) 0 .

  The reference computes this twice, layer after layer, recomputing s and d. The kernel computes s and d once, packs
  them as the two columns of one array, and runs three tiled regions over blocks of 5000 rows — (s ⊙ x) · W1; then
  max (d ⊙ agg1 + b1) 0 scaled by s and multiplied with W2; then max (d ⊙ agg2 + b2) 0 — with the gather / scatter-add
  edge stage between them as plain array operations, the same ones the reference uses. Its intermediate results
  are kept in a narrower float format; over the extended reals a change of format is the identity, the matrix unit's
  product into a zero accumulator is the sum of products, and so is the host's `dot_general`. No algebraic law beyond
  that is needed, and the inputs' finiteness is not used: stage by stage the two programs are the same function.

  The modules: `Spec` (the three dense stages as functions of whole arrays), `Layout` (a block's column and row
  broadcasts read at an index), `FirstRegion` / `MiddleRegion` / `FinalRegion` (each region's result array is its stage
  of the arrays it is entered with: the body at a symbolic grid point, then the twenty blocks cover the array),
  `KernelRun` (the kernel's run with its result named), `RefLayers` (the reference's dense stages are the same three
  functions), `KernelStages` (the kernel's buffers at its segment boundaries are the reference's stages), and here the
  five claims.
-/
import proofs.«122150_j2087354105940_2_alg».proof.Defs
import proofs.«122150_j2087354105940_2_alg».proof.Proof.Gen.Kernel
import proofs.«122150_j2087354105940_2_alg».proof.Proof.Gen.Kernel.Skeleton
import proofs.«122150_j2087354105940_2_alg».proof.Proof.Gen.Kernel.Launch
import proofs.«122150_j2087354105940_2_alg».proof.Proof.Gen.Kernel.Points
import proofs.«122150_j2087354105940_2_alg».proof.Proof.Gen.Kernel.Frame
import proofs.«122150_j2087354105940_2_alg».proof.Proof.Gen.KernelIdeal
import proofs.«122150_j2087354105940_2_alg».proof.Proof.Gen.KernelIdeal.Skeleton
import proofs.«122150_j2087354105940_2_alg».proof.Proof.Gen.KernelIdeal.Launch
import proofs.«122150_j2087354105940_2_alg».proof.Proof.Gen.KernelIdeal.Points
import proofs.«122150_j2087354105940_2_alg».proof.Proof.Gen.KernelIdeal.Frame
import proofs.«122150_j2087354105940_2_alg».proof.Proof.Gen.ReferenceIdeal
import proofs.«122150_j2087354105940_2_alg».proof.Proof.RefRun
import proofs.«122150_j2087354105940_2_alg».proof.Proof.RefRead
import proofs.«122150_j2087354105940_2_alg».proof.Proof.Gen.Pre_finite_inputs
import proofs.«122150_j2087354105940_2_alg».proof.Proof.KernelRun
import proofs.«122150_j2087354105940_2_alg».proof.Proof.KernelStages
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From memories agreeing on the arguments both programs run, and both results are the reference's result term of the
    arguments: the kernel's by its buffers boundary by boundary, the reference's by its run. -/
theorem algebraic : Cert.algebraic_KernelIdeal_ReferenceIdeal := by
  intro m ρ m' ρ' _ hagree
  refine ⟨fun c => Cert.KernelIdeal.Gen.W10 m ρ c (Proc.devRef .tc Cert.KernelIdeal.main_v48),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, (hagree c).1, (hagree c).2.1, (hagree c).2.2.1, (hagree c).2.2.2.1,
    (hagree c).2.2.2.2.1, (hagree c).2.2.2.2.2.1, (hagree c).2.2.2.2.2.2]
  exact (Cert.KernelIdeal.Stages.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
